-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x10000 : Shape := ⟨2, ![128, 10000]⟩
abbrev S10000x10000 : Shape := ⟨2, ![10000, 10000]⟩
abbrev S10000x128 : Shape := ⟨2, ![10000, 128]⟩
abbrev S_ : Shape := ⟨0, ![]⟩

class Facts : Prop where
  bcast_S_S128x10000 : S_.BroadcastsInDim S128x10000 (![] : Fin 0 → Fin S128x10000.rank)
  reducesTo_S128x10000_S_d0_1 : S128x10000.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S128x10000 .f32) (main_arg1 : FVec F S10000x10000 .f32) (main_arg2 : FVec F S10000x128 .f32) : IVec S_ 1 :=
  let main_v0 : FVec F S128x10000 .f32 := Host.absf main_arg0
  let main_cst : FVec F S_ .f32 := constant S_ .f32 0x7F800000#32
  let main_v1 : FVec F S128x10000 .f32 := broadcastInDim S128x10000 ![] bcast_S_S128x10000 main_cst
  let main_v2 : IVec S128x10000 1 := cmpf .olt main_v0 main_v1
  let main_c : IVec S_ 1 := constantI S_ 1 1#1
  let main_v3 : IVec S_ 1 := (fun x v => Host.reduce IntOp.andi x v reducesTo_S128x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  main_v13
-- ==== Kernel.lean ====
abbrev S128x10000 : Shape := ⟨2, ![128, 10000]⟩
abbrev S10000x10000 : Shape := ⟨2, ![10000, 10000]⟩
abbrev S10000x128 : Shape := ⟨2, ![10000, 128]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S128x10000, .f32⟩
  | .hbm, ⟨1, _⟩ => ⟨S10000x10000, .f32⟩
  | .hbm, ⟨2, _⟩ => ⟨S10000x128, .f32⟩
  | .hbm, ⟨3, _⟩ => ⟨S128x128, .f32⟩
  | .local _ .vmem, ⟨0, _⟩ => ⟨S128x10000, .f32⟩
  | .local _ .vmem, ⟨1, _⟩ => ⟨S400x10000, .f32⟩
  | .local _ .vmem, ⟨2, _⟩ => ⟨S400x10000, .f32⟩
  | .local _ .vmem, ⟨3, _⟩ => ⟨S400x128, .f32⟩
  | .local _ .vmem, ⟨4, _⟩ => ⟨S400x128, .f32⟩
  | .local _ .vmem, ⟨5, _⟩ => ⟨S128x128, .f32⟩
  | _, _ => ⟨S128x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  inb_S128x10000_S128x10000_0_0 : ∀ a, (![0, 0] : Fin 2 → Nat) a + S128x10000.size a ≤ S128x10000.size a
  h_S128x10000 : 0 < S128x10000.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  dot_S400x10000_S128x10000_S400x128_1_1_0_0_n_n_wf : DotDims.WF S400x10000 S128x10000 S400x128 [1] [1] [0] [0] [] []
  dot_S400x128_S400x128_S128x128_0_0_1_1_n_n_wf : DotDims.WF S400x128 S400x128 S128x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S128x10000.size a
  hwx0_0 : ∀ i : grid0.Coords, EltTy.bits .f32 = 32 ∨ (Rect.block (s := S128x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)

variable [Facts₀]

def dot_S400x10000_S128x10000_S400x128_1_1_0_0_n_n : DotDims S400x10000 S128x10000 S400x128 where
  lhsContracting := [1]
  rhsContracting := [1]
  lhsNonContracting := [0]
  rhsNonContracting := [0]
  lhsBatch := []
  rhsBatch := []
  wf := dot_S400x10000_S128x10000_S400x128_1_1_0_0_n_n_wf
def dot_S400x128_S400x128_S128x128_0_0_1_1_n_n : DotDims S400x128 S400x128 S128x128 where
  lhsContracting := [0]
  rhsContracting := [0]
  lhsNonContracting := [1]
  rhsNonContracting := [1]
  lhsBatch := []
  rhsBatch := []
  wf := dot_S400x128_S400x128_S128x128_0_0_1_1_n_n_wf

abbrev win0_0 : Pipeline.Window sig grid0 :=
  Pipeline.Window.ofSpec (Memref.whole main_arg0) S128x10000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x10000 : Shape := ⟨2, ![128, 10000]⟩
abbrev S10000x10000 : Shape := ⟨2, ![10000, 10000]⟩
abbrev S10000x128 : Shape := ⟨2, ![10000, 128]⟩
abbrev S128x128 : Shape := ⟨2, ![128, 128]⟩

abbrev nBuf : Space → Nat
  | .hbm => 7
  | .vmem => 0
  | .smem => 0
  | _ => 0

abbrev bufTy : (tb : Table) → Fin (tcTables nBuf tb) → BufTy
  | .hbm, ⟨0, _⟩ => ⟨S128x10000, .f32⟩
  | .hbm, ⟨1, _⟩ => ⟨S10000x10000, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S128x10000, .f32⟩
  | .hbm, ⟨6, _⟩ => ⟨S128x128, .f32⟩
  | _, _ => ⟨S128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S128x10000_S10000x128_1_0 : S128x10000.Transposes [1, 0] S10000x128
  transposes_S10000x128_S128x10000_1_0 : S10000x128.Transposes [1, 0] S128x10000
  dot_S10000x10000_S10000x128_S10000x128_1_0_0_1_n_n_wf : DotDims.WF S10000x10000 S10000x128 S10000x128 [1] [0] [0] [1] [] []
  dot_S128x10000_S10000x128_S128x128_1_0_0_1_n_n_wf : DotDims.WF S128x10000 S10000x128 S128x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf

class Facts : Prop extends Facts₀ where

variable [Facts]
-- ==== Proof.Spec.lean ====
/-
  Graph convolution as one function of the three argument arrays, and the regrouping of its outer sum.

  With `X : [128, 10000]`, `A : [10000, 10000]` and `W : [10000, 128]`, entry `(d, f)` of `(A · Xᵀ)ᵀ · W` is
      Σ_j (Σ_n A[j, n] · X[d, n]) · W[j, f],
  a sum of one term per row `j` of `A`. The 10000 rows are 25 consecutive blocks of 400; row `r` of block `t` is
  row `400·t + r`. Addition on the extended reals is commutative and associative (it is an additive commutative
  monoid, the infinities included), so the sum over all rows is the sum over the blocks of each block's sum: no
  finiteness of the entries is used.
-/
import Idealize.ShloMosaic.PureOps.Ideal
import Idealize.ShloMosaic.Lib.ValueIdx

noncomputable section

namespace Cert.GraphConv

open Idealize.ShloMosaic Idealize.ShloMosaic.ValueIdx

/-- The shapes of `X`, `A`, `W` and of the result. -/
abbrev SX : Shape := ⟨2, ![128, 10000]⟩
abbrev SA : Shape := ⟨2, ![10000, 10000]⟩
abbrev SW : Shape := ⟨2, ![10000, 128]⟩
abbrev SO : Shape := ⟨2, ![128, 128]⟩

variable (X : SX.Idx → EReal) (A : SA.Idx → EReal) (W : SW.Idx → EReal)

/-- Row `j`'s term of entry `(d, f)`: `(Σ_n A[j, n] · X[d, n]) · W[j, f]`. -/
def rowTerm (d f : Fin 128) (j : Fin 10000) : EReal :=
  (∑ n : Fin 10000, A (ix2 j n) * X (ix2 d n)) * W (ix2 j f)

/-- The graph convolution `(A · Xᵀ)ᵀ · W` at an index: the sum of every row's term. -/
def conv : SO.Idx → EReal := fun i => ∑ j : Fin 10000, rowTerm X A W (i 0) (i 1) j

/-- Row `r` of the `t`-th block of 400 rows is row `400·t + r`. -/
def rowOf (t : Fin 25) (r : Fin 400) : Fin 10000 :=
  ⟨400 * t.val + r.val, by have := t.isLt; have := r.isLt; omega⟩

/-- Block `t`'s share of entry `(d, f)`: the terms of its 400 rows. -/
def blockTerm (d f : Fin 128) (t : Fin 25) : EReal := ∑ r : Fin 400, rowTerm X A W d f (rowOf t r)

/-- A sum over the 10000 rows is the sum, over the 25 blocks, of the sum over each block's 400 rows: the rows are
    the pairs (block, row in the block), and a sum over pairs is the iterated sum. -/
theorem sum_rows_eq_sum_blocks (g : Fin 10000 → EReal) :
    ∑ j : Fin 10000, g j = ∑ t : Fin 25, ∑ r : Fin 400, g (rowOf t r) := by
  have hg : ∀ (t : Fin 25) (r : Fin 400), (finProdFinEquiv (t, r) : Fin (25 * 400)) = rowOf t r := fun t r =>
    Fin.ext (by show r.val + 400 * t.val = 400 * t.val + r.val; omega)
  calc ∑ j : Fin 10000, g j
      = ∑ p : Fin 25 × Fin 400, g (finProdFinEquiv p : Fin (25 * 400)) :=
        (Equiv.sum_comp (finProdFinEquiv : Fin 25 × Fin 400 ≃ Fin (25 * 400)) g).symm
    _ = ∑ t : Fin 25, ∑ r : Fin 400, g (finProdFinEquiv (t, r) : Fin (25 * 400)) := Fintype.sum_prod_type _
    _ = ∑ t : Fin 25, ∑ r : Fin 400, g (rowOf t r) :=
        Finset.sum_congr rfl fun t _ => Finset.sum_congr rfl fun r _ => congrArg g (hg t r)

/-- The graph convolution, block by block. -/
theorem conv_eq_sum_blocks (i : SO.Idx) : conv X A W i = ∑ t : Fin 25, blockTerm X A W (i 0) (i 1) t :=
  sum_rows_eq_sum_blocks _

/-- Block `s`'s share with the block numbered by a natural number (zero past the last block), the form in which a
    running total over consecutive blocks adds it. -/
def blockTermN (s : ℕ) (i : SO.Idx) : EReal :=
  if h : s < 25 then blockTerm X A W (i 0) (i 1) ⟨s, h⟩ else 0

/-- The graph convolution is zero plus the shares of blocks `0 … 24`, added in order. -/
theorem conv_eq_zero_add_range (i : SO.Idx) :
    conv X A W i = 0 + ∑ s ∈ Finset.range (24 + 1), blockTermN X A W (0 + s) i := by
  rw [conv_eq_sum_blocks, zero_add, Finset.sum_range]
  refine Finset.sum_congr rfl fun t _ => ?_
  have ht : 0 + t.val < 25 := by have := t.isLt; omega
  unfold blockTermN
  rw [dif_pos ht]
  exact congrArg (blockTerm X A W (i 0) (i 1)) (Fin.ext (by show t.val = 0 + t.val; omega))

end Cert.GraphConv

end
-- ==== Proof.RefValue.lean ====
/-
  The reference, read index by index, is the graph convolution of its three arguments.

  The reference transposes `X`, multiplies `A` by it, transposes the product back and multiplies by `W`. A transpose
  only swaps the two coordinates of the index it is read at, and each product at an index is the sum over the one
  contracted coordinate of the operands' products. Reading the four operations outermost first, entry `(d, f)` is
  `Σ_k (Σ_n A[k, n] · X[d, n]) · W[k, f]`: the composed index maps are these coordinates, one `rfl` per axis.
-/
import proofs.«142092_g1185410973709_cont_fleet_179_5_alg».proof.Proof.Gen.ReferenceIdeal.Read
import proofs.«142092_g1185410973709_cont_fleet_179_5_alg».proof.Proof.Spec

noncomputable section

namespace Cert.GraphConv.Ref

open Cert.ReferenceIdeal Cert.ReferenceIdeal.Read Cert.GraphConv
open Idealize.ShloMosaic Idealize.ShloMosaic.ValueIdx

variable (x0 : (⟨S128x10000, .f32⟩ : BufTy).Contents (Elt Ideal)) (x1 : (⟨S10000x10000, .f32⟩ : BufTy).Contents (Elt Ideal))
  (x2 : (⟨S10000x128, .f32⟩ : BufTy).Contents (Elt Ideal))

/-- Where the outer product reads `W`: row `k`, the output's column. -/
theorem w_index (i : S128x128.Idx) (k : Fin 10000) : ridx_main_v3 i k = ix2 k (i 1) :=
  funext fun a => Fin.ext (by match a with | ⟨0, _⟩ => rfl | ⟨1, _⟩ => rfl)

/-- Where the inner product reads `A`, through the transpose of its result: row `k`, column `n`. -/
theorem a_index (i : S128x128.Idx) (k n : Fin 10000) :
    lidx_main_v1 (idx_main_v2 (lidx_main_v3 i k)) n = ix2 k n :=
  funext fun a => Fin.ext (by match a with | ⟨0, _⟩ => rfl | ⟨1, _⟩ => rfl)

/-- Where the inner product reads `X`, through both transposes: the output's row, column `n`. -/
theorem x_index (i : S128x128.Idx) (k n : Fin 10000) :
    idx_main_v0 (ridx_main_v1 (idx_main_v2 (lidx_main_v3 i k)) n) = ix2 (i 0) n :=
  funext fun a => Fin.ext (by match a with | ⟨0, _⟩ => rfl | ⟨1, _⟩ => rfl)

/-- The reference's last stage is the graph convolution of the arguments. -/
theorem reference_eq_conv : val_main_v3 (F := Ideal) x0 x1 x2 = conv x0 x1 x2 := by
  funext i
  rw [val_main_v3_apply]
  unfold conv rowTerm
  refine Finset.sum_congr rfl fun k _ => ?_
  rw [val_main_v2_apply, val_main_v1_apply, w_index]
  refine congrArg (· * x2 (ix2 k (i 1))) (Finset.sum_congr rfl fun n _ => ?_)
  rw [val_main_v0_apply, a_index, x_index]
  rfl

end Cert.GraphConv.Ref

end
-- ==== Proof.Products.lean ====
/-
  The body's arithmetic at an index.

  At one grid point the body holds a block `a : [400, 10000]` of rows of `A`, all of `x : [128, 10000]`, the matching
  block `w : [400, 128]` of rows of `W`, and the running total `acc : [128, 128]`. It forms `p = a · xᵀ`
  (`p[r, d] = Σ_n a[r, n] · x[d, n]`, both operands contracted on their second axis), then `pᵀ · w` (both operands
  contracted on their first axis, the block's row `r`) and adds it to the running total. Each product starts from the zero
  accumulator, so at an index it is the plain sum over its one contracted coordinate. Hence the new total at `(d, f)` is
      acc[d, f] + Σ_r (Σ_n a[r, n] · x[d, n]) · w[r, f].
-/
import proofs.«142092_g1185410973709_cont_fleet_179_5_alg».proof.Proof.Gen.KernelIdeal.Skeleton
import Idealize.ShloMosaic.PureOps.Ideal.Laws
import Idealize.ShloMosaic.Lib.ValueIdx
import Idealize.ShloMosaic.Lib.Pipeline.Value

noncomputable section

namespace Cert.GraphConv.Kern

open Cert.KernelIdeal Cert.KernelIdeal.Gen
open Idealize.ShloMosaic Idealize.ShloMosaic.ValueIdx

/-- The first product's dimension numbers: `[400, 10000] × [128, 10000] → [400, 128]`, contracting axis 1 of both. -/
abbrev dotAX := dot_S400x10000_S128x10000_S400x128_1_1_0_0_n_n
/-- The second product's dimension numbers: `[400, 128] × [400, 128] → [128, 128]`, contracting axis 0 of both. -/
abbrev dotPW := dot_S400x128_S400x128_S128x128_0_0_1_1_n_n

/-! ## The first product: `p[r, d] = Σ_n a[r, n] · x[d, n]` -/

theorem ax_lhs_row (i : S400x128.Idx) (q : dotAX.contr.Idx) : (dotAX.lhsIdx i q 0).val = (i 0).val := by
  unfold DotDims.lhsIdx
  rw [dif_neg (show ¬(0 : Fin S400x10000.rank) ∈ dotAX.lhsBatch by decide), dif_pos (show (0 : Fin S400x10000.rank) ∈ dotAX.lhsNonContracting by decide)]
  rfl

theorem ax_lhs_col (i : S400x128.Idx) (q : dotAX.contr.Idx) : (dotAX.lhsIdx i q 1).val = (q ⟨0, by decide⟩).val :=
  dotAX.lhsIdx_val_of_single rfl i q

theorem ax_rhs_row (i : S400x128.Idx) (q : dotAX.contr.Idx) : (dotAX.rhsIdx i q 0).val = (i 1).val := by
  unfold DotDims.rhsIdx
  rw [dif_neg (show ¬(0 : Fin S128x10000.rank) ∈ dotAX.rhsBatch by decide), dif_pos (show (0 : Fin S128x10000.rank) ∈ dotAX.rhsNonContracting by decide)]
  rfl

theorem ax_rhs_col (i : S400x128.Idx) (q : dotAX.contr.Idx) : (dotAX.rhsIdx i q 1).val = (q ⟨0, by decide⟩).val :=
  dotAX.rhsIdx_val_of_single rfl i q

/-- Entry `(r, d)` of `a · xᵀ` from the zero accumulator: row `r` of `a` against row `d` of `x`. -/
theorem ax_apply (a : FVec Ideal S400x10000 .f32) (x : FVec Ideal S128x10000 .f32) (r : Fin 400) (d : Fin 128) :
    matmul dotAX none a x (constant (F := Ideal) S400x128 .f32 0x00000000#32) (ix2 r d)
      = ∑ n : Fin 10000, a (ix2 r n) * x (ix2 d n) := by
  simp only [matmul]
  rw [Ideal.matmul_constant_zero_apply, ← Equiv.sum_comp (contrEquiv1 dotAX 10000 rfl rfl).symm]
  refine Finset.sum_congr rfl fun n _ => ?_
  have hn := contrEquiv1_symm_val dotAX 10000 rfl rfl n
  have el : dotAX.lhsIdx (ix2 r d) ((contrEquiv1 dotAX 10000 rfl rfl).symm n) = ix2 r n := funext fun b => Fin.ext (by
    match b with
    | ⟨0, _⟩ => exact ax_lhs_row _ _
    | ⟨1, _⟩ => exact (ax_lhs_col _ _).trans hn)
  have er : dotAX.rhsIdx (ix2 r d) ((contrEquiv1 dotAX 10000 rfl rfl).symm n) = ix2 d n := funext fun b => Fin.ext (by
    match b with
    | ⟨0, _⟩ => exact ax_rhs_row _ _
    | ⟨1, _⟩ => exact (ax_rhs_col _ _).trans hn)
  rw [el, er]

/-! ## The second product: `(pᵀ · w)[d, f] = Σ_r p[r, d] · w[r, f]` -/

theorem pw_lhs_row (i : S128x128.Idx) (q : dotPW.contr.Idx) : (dotPW.lhsIdx i q 0).val = (q ⟨0, by decide⟩).val :=
  dotPW.lhsIdx_val_of_single rfl i q

theorem pw_lhs_col (i : S128x128.Idx) (q : dotPW.contr.Idx) : (dotPW.lhsIdx i q 1).val = (i 0).val := by
  unfold DotDims.lhsIdx
  rw [dif_neg (show ¬(1 : Fin S400x128.rank) ∈ dotPW.lhsBatch by decide), dif_pos (show (1 : Fin S400x128.rank) ∈ dotPW.lhsNonContracting by decide)]
  rfl

theorem pw_rhs_row (i : S128x128.Idx) (q : dotPW.contr.Idx) : (dotPW.rhsIdx i q 0).val = (q ⟨0, by decide⟩).val :=
  dotPW.rhsIdx_val_of_single rfl i q

theorem pw_rhs_col (i : S128x128.Idx) (q : dotPW.contr.Idx) : (dotPW.rhsIdx i q 1).val = (i 1).val := by
  unfold DotDims.rhsIdx
  rw [dif_neg (show ¬(1 : Fin S400x128.rank) ∈ dotPW.rhsBatch by decide), dif_pos (show (1 : Fin S400x128.rank) ∈ dotPW.rhsNonContracting by decide)]
  rfl

/-- Entry `(d, f)` of `pᵀ · w` from the zero accumulator: column `d` of `p` against column `f` of `w`. -/
theorem pw_apply (p : FVec Ideal S400x128 .f32) (w : FVec Ideal S400x128 .f32) (d f : Fin 128) :
    matmul dotPW none p w (constant (F := Ideal) S128x128 .f32 0x00000000#32) (ix2 d f)
      = ∑ r : Fin 400, p (ix2 r d) * w (ix2 r f) := by
  simp only [matmul]
  rw [Ideal.matmul_constant_zero_apply, ← Equiv.sum_comp (contrEquiv1 dotPW 400 rfl rfl).symm]
  refine Finset.sum_congr rfl fun r _ => ?_
  have hr := contrEquiv1_symm_val dotPW 400 rfl rfl r
  have el : dotPW.lhsIdx (ix2 d f) ((contrEquiv1 dotPW 400 rfl rfl).symm r) = ix2 r d := funext fun b => Fin.ext (by
    match b with
    | ⟨0, _⟩ => exact (pw_lhs_row _ _).trans hr
    | ⟨1, _⟩ => exact pw_lhs_col _ _)
  have er : dotPW.rhsIdx (ix2 d f) ((contrEquiv1 dotPW 400 rfl rfl).symm r) = ix2 r f := funext fun b => Fin.ext (by
    match b with
    | ⟨0, _⟩ => exact (pw_rhs_row _ _).trans hr
    | ⟨1, _⟩ => exact pw_rhs_col _ _)
  rw [el, er]

/-! ## The body's two stored values at an index -/

/-- The value stored at the first grid point before accumulating is zero everywhere. -/
theorem zero_fill_apply (i : S128x128.Idx) : (k0_pay1 (F := Ideal)) i = 0 := by
  show Ideal.ofBits .f32 0x00000000#32 = 0
  exact Ideal.ofBits_zero_f32

/-- The new running total at `(d, f)`: the old one plus this block's `Σ_r (Σ_n a[r, n] · x[d, n]) · w[r, f]`. -/
theorem step_apply (a : FVec Ideal S400x10000 .f32) (x : FVec Ideal S128x10000 .f32) (acc : FVec Ideal S128x128 .f32)
    (w : FVec Ideal S400x128 .f32) (d f : Fin 128) :
    k0_pay2 (F := Ideal) a x acc w (ix2 d f)
      = acc (ix2 d f) + ∑ r : Fin 400, (∑ n : Fin 10000, a (ix2 r n) * x (ix2 d n)) * w (ix2 r f) := by
  unfold k0_pay2
  refine (addf_apply _ _ _).trans ?_
  refine congrArg₂ (· + ·) (congrFun (shapeCast_self _ _) _) ?_
  refine (pw_apply _ w d f).trans ?_
  exact Finset.sum_congr rfl fun r _ => congrArg (· * w (ix2 r f)) (ax_apply a x r d)

end Cert.GraphConv.Kern

end
-- ==== Proof.KernelValue.lean ====
/-
  What the kernel leaves in its output array is the graph convolution of its three arguments.

  The kernel visits 25 grid points in order. At point `t` it holds all of `X`, the block of rows `400·t … 400·t + 399` of
  `A` and the same rows of `W`; the output block `[128, 128]` is the whole output and stays in place across the points.
  The first point overwrites it with zero and then adds its block's share; every later point adds its block's share to
  what the point before left. So after the last point entry `(d, f)` holds
      0 + Σ_{t < 25} Σ_{r < 400} (Σ_n A[400·t + r, n] · X[d, n]) · W[400·t + r, f],
  which is the sum over all 10000 rows regrouped by blocks.
-/
import proofs.«142092_g1185410973709_cont_fleet_179_5_alg».proof.Proof.Gen.KernelIdeal.Value
import proofs.«142092_g1185410973709_cont_fleet_179_5_alg».proof.Proof.Spec
import proofs.«142092_g1185410973709_cont_fleet_179_5_alg».proof.Proof.Products

noncomputable section

namespace Cert.GraphConv.Kern

open Cert.KernelIdeal Cert.KernelIdeal.Gen Cert.KernelIdeal.Value Cert.GraphConv
open Idealize.ShloMosaic Idealize.ShloMosaic.ValueIdx Idealize.ShloMosaic.TcCoe Idealize.SL.Sem

variable (m : (ℓ : Loc nD τ sig) → Buf (Elt Ideal) ℓ)

/-- There are 25 grid points. -/
theorem point_lt (t : Fin cfg0.N) : t.val < 25 := lt_of_lt_of_eq t.isLt (show cfg0.N = 25 from N_0)

/-! ## Which block each window holds at a point -/

/-- `X`'s window is the whole array at every point. -/
theorem x_window : ∀ t : Fin cfg0.N, win0_0.index t (0 : Fin 2) = 0 ∧ win0_0.index t (1 : Fin 2) = 0 :=
  (by decide +kernel : ∀ t : Fin grid0.N, _)

/-- `A`'s window at point `t` is its `t`-th block of 400 rows, all columns. -/
theorem a_window : ∀ t : Fin cfg0.N, win0_1.index t (0 : Fin 2) = t.val ∧ win0_1.index t (1 : Fin 2) = 0 :=
  (by decide +kernel : ∀ t : Fin grid0.N, _)

/-- `W`'s window at point `t` is its `t`-th block of 400 rows, all columns. -/
theorem w_window : ∀ t : Fin cfg0.N, win0_2.index t (0 : Fin 2) = t.val ∧ win0_2.index t (1 : Fin 2) = 0 :=
  (by decide +kernel : ∀ t : Fin grid0.N, _)

/-! ## The blocks read off the arrays -/

/-- Entry `(d, n)` of the block of `X` held at any point is `X[d, n]`. -/
theorem x_block (c : Dev nD) (t : Fin cfg0.N) (d : Fin 128) (n : Fin 10000) :
    (iblk m c 0 t : FVec Ideal S128x10000 .f32) (ix2 d n) = m ((c : Thread nD τ).loc main_arg0) (ix2 d n) := by
  obtain ⟨h0, h1⟩ := x_window t
  unfold iblk
  rw [View.read_apply]
  show V m c main_arg0 _ = m (c.tc.loc main_arg0) _
  unfold V
  congr 1
  funext a
  apply Fin.ext
  match a with
  | ⟨0, _⟩ => show win0_0.index t 0 * 128 + 1 * d.val = d.val; rw [h0]; omega
  | ⟨1, _⟩ => show win0_0.index t 1 * 10000 + 1 * n.val = n.val; rw [h1]; omega

/-- Entry `(r, n)` of the block of `A` held at point `t` is `A[400·t + r, n]`. -/
theorem a_block (c : Dev nD) (t : Fin cfg0.N) (r : Fin 400) (n : Fin 10000) :
    (iblk m c 1 t : FVec Ideal S400x10000 .f32) (ix2 r n)
      = m ((c : Thread nD τ).loc main_arg1) (ix2 (rowOf ⟨t.val, point_lt t⟩ r) n) := by
  obtain ⟨h0, h1⟩ := a_window t
  unfold iblk
  rw [View.read_apply]
  show V m c main_arg1 _ = m (c.tc.loc main_arg1) _
  unfold V
  congr 1
  funext a
  apply Fin.ext
  match a with
  | ⟨0, _⟩ => show win0_1.index t 0 * 400 + 1 * r.val = 400 * t.val + r.val; rw [h0]; omega
  | ⟨1, _⟩ => show win0_1.index t 1 * 10000 + 1 * n.val = n.val; rw [h1]; omega

/-- Entry `(r, f)` of the block of `W` held at point `t` is `W[400·t + r, f]`. -/
theorem w_block (c : Dev nD) (t : Fin cfg0.N) (r : Fin 400) (f : Fin 128) :
    (iblk m c 2 t : FVec Ideal S400x128 .f32) (ix2 r f)
      = m ((c : Thread nD τ).loc main_arg2) (ix2 (rowOf ⟨t.val, point_lt t⟩ r) f) := by
  obtain ⟨h0, h1⟩ := w_window t
  unfold iblk
  rw [View.read_apply]
  show V m c main_arg2 _ = m (c.tc.loc main_arg2) _
  unfold V
  congr 1
  funext a
  apply Fin.ext
  match a with
  | ⟨0, _⟩ => show win0_2.index t 0 * 400 + 1 * r.val = 400 * t.val + r.val; rw [h0]; omega
  | ⟨1, _⟩ => show win0_2.index t 1 * 128 + 1 * f.val = f.val; rw [h1]; omega

/-! ## One point's step, and the whole run -/

/-- At point `n` the body turns a running total `acc` into `acc` plus block `n`'s share of the graph convolution. -/
theorem point_adds_block (c : Dev nD) (n : ℕ) (h : n < cfg0.N) (acc : FVec Ideal S128x128 .f32) (i : S128x128.Idx) :
    k0_pay2 (F := Ideal) (iblk m c 1 ⟨n, h⟩) (iblk m c 0 ⟨n, h⟩) acc (iblk m c 2 ⟨n, h⟩) i
      = acc i + blockTermN (m ((c : Thread nD τ).loc main_arg0)) (m ((c : Thread nD τ).loc main_arg1))
          (m ((c : Thread nD τ).loc main_arg2)) n i := by
  obtain ⟨d, f, rfl⟩ : ∃ (d f : Fin 128), i = ix2 d f := ⟨i 0, i 1, eq_ix2 i⟩
  have hn : n < 25 := point_lt ⟨n, h⟩
  refine (step_apply (iblk m c 1 ⟨n, h⟩) (iblk m c 0 ⟨n, h⟩) acc (iblk m c 2 ⟨n, h⟩) d f).trans ?_
  refine congrArg (acc (ix2 d f) + ·) ?_
  unfold blockTermN
  rw [dif_pos hn]
  unfold blockTerm rowTerm
  refine Finset.sum_congr rfl fun r _ => ?_
  exact congrArg₂ (· * ·)
    (Finset.sum_congr rfl fun n' _ => congrArg₂ (· * ·) (a_block m c ⟨n, h⟩ r n') (x_block m c ⟨n, h⟩ d n'))
    (w_block m c ⟨n, h⟩ r f)

/-- The kernel's output array after the run, index by index, is the graph convolution of the argument arrays. -/
theorem output_eq_conv (c : Dev nD) (i : S128x128.Idx) :
    G3 (F := Ideal) m c i
      = conv (m ((c : Thread nD τ).loc main_arg0)) (m ((c : Thread nD τ).loc main_arg1))
          (m ((c : Thread nD τ).loc main_arg2)) i := by
  have h0 : (i 0).val < 128 := idx2_lt0 i
  have h1 : (i 1).val < 128 := idx2_lt1 i
  have hlast : 0 + 24 < cfg0.N := lt_of_lt_of_eq (by omega : 0 + 24 < 25) (show cfg0.N = 25 from N_0).symm
  -- the output has one block: every index lies in the run of points 0 … 24, at its own place
  have hrun : run3Of i = 0 := by
    show 1 * ((i 0).val / 128 - 0) + 1 * ((i 1).val / 128 - 0) = 0
    omega
  have hloc : loc3Of i = i := funext fun a => Fin.ext (by
    match a with
    | ⟨0, _⟩ => show (i 0).val % 128 = (i 0).val; omega
    | ⟨1, _⟩ => show (i 1).val % 128 = (i 1).val; omega)
  have same : ∀ (b : ℕ) (h : b + 24 < cfg0.N), b = 0 →
      Pipeline.accAt (reset3 m c) (step3 m c) b 24 h = Pipeline.accAt (reset3 m c) (step3 m c) 0 24 hlast := by
    intro b h hb; subst hb; rfl
  have hdom : 25 * run3Of i + 24 < cfg0.N := by rw [hrun]; exact hlast
  unfold G3
  rw [dif_pos hdom, hloc, same _ hdom (by rw [hrun])]
  -- the first point starts from zero, each later point adds its block's share
  refine (Pipeline.accAt_add_apply (reset3 m c) (step3 m c) (fun _ => (0 : EReal))
    (blockTermN (m ((c : Thread nD τ).loc main_arg0)) (m ((c : Thread nD τ).loc main_arg1)) (m ((c : Thread nD τ).loc main_arg2)))
    0 24
    (fun h j => (point_adds_block m c 0 h (k0_pay1 (F := Ideal)) j).trans (congrArg (· + _) (zero_fill_apply j)))
    (fun n h acc j _ _ => point_adds_block m c n h acc j)
    24 (le_refl 24) hlast i).trans ?_
  exact (conv_eq_zero_add_range _ _ _ i).symm

end Cert.GraphConv.Kern

end
-- ==== Proof.lean ====
/-
  Graph convolution `(A · Xᵀ)ᵀ · W` for `X : [128, 10000]`, `A : [10000, 10000]`, `W : [10000, 128]`: a kernel that streams
  `A` and `W` in 25 blocks of 400 rows and accumulates the `[128, 128]` result in place, against the plain expression.

  On the extended reals both compute, at entry `(d, f)`, the sum over the rows `j` of `A` of
  `(Σ_n A[j, n] · X[d, n]) · W[j, f]`. The reference sums over all 10000 rows at once (two matrix products and two
  transposes, read index by index: `RefValue`). The kernel starts from zero and adds, block after block, the sum over
  that block's 400 rows (`Products` for one block's arithmetic, `KernelValue` for the run over the blocks). The two
  differ only in how one finite sum is grouped, and addition on the extended reals is commutative and associative
  (`Spec`), so the results are equal whatever the inputs: the finiteness of the inputs is not used. The kernel's
  idealization rewrote no operation, so that claim is trivial; the three frame claims are the generated runs.
-/
import proofs.«142092_g1185410973709_cont_fleet_179_5_alg».proof.Defs
import proofs.«142092_g1185410973709_cont_fleet_179_5_alg».proof.Proof.Gen.Kernel.Frame
import proofs.«142092_g1185410973709_cont_fleet_179_5_alg».proof.Proof.Gen.KernelIdeal.Value
import proofs.«142092_g1185410973709_cont_fleet_179_5_alg».proof.Proof.Gen.Pre_finite_inputs
import proofs.«142092_g1185410973709_cont_fleet_179_5_alg».proof.Proof.Gen.ReferenceIdeal.Run
import proofs.«142092_g1185410973709_cont_fleet_179_5_alg».proof.Proof.RefValue
import proofs.«142092_g1185410973709_cont_fleet_179_5_alg».proof.Proof.KernelValue
import Idealize.ShloMosaic.Adequacy
import Idealize.ShloMosaic.Init

noncomputable section

namespace Cert.Proof

open Idealize.ShloMosaic Idealize.SL.Sem

/-- The idealized kernel terminates without a fault and leaves its arguments unchanged: its value run, weakened. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments unchanged: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `X`, `A` and `W`, both programs end with the graph convolution of those arrays in
    their result: the kernel as the block-by-block total, the reference as the sum over all rows. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v3_eq, Cert.GraphConv.Ref.reference_eq_conv]
  funext i
  exact (Cert.GraphConv.Kern.output_eq_conv m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
